-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 33
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2048x1024_S1024x1024_0_0 : S2048x1024.Slices ![0, 0] S1024x1024
  bitsLt_bf16_f32 : FTy.bits .bf16 < FTy.bits .f32
  slices_S2048x1024_S1024x1024_1024_0 : S2048x1024.Slices ![1024, 0] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S4096x1024.size a
  hwx0_15 : ∀ i : grid0.Coords, EltTy.bits .f32 = 32 ∨ (Rect.block (s := S4096x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S4096x1024.size a
  hwx0_16 : ∀ i : grid0.Coords, EltTy.bits .f32 = 32 ∨ (Rect.block (s := S4096x1024) S256x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v20_1) S256x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x2048_S2048x1024_S4096x1024_1_0_0_1_n_n_wf : DotDims.WF S4096x2048 S2048x1024 S4096x1024 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.LstmSpec.lean ====
/-
  One step of an LSTM cell over a batch of 4096 rows, 1024 units and 1024 input features, written on index coordinates
  over the extended reals, and the one law the certificate rests on.

  For each of the four gates (forget, input, candidate, output) a weight matrix of 2048 rows by 1024 units multiplies
  the row made of the hidden state's 1024 units followed by the input's 1024 features; a bias is added; the forget,
  input and output gates pass through the logistic function and the candidate through tanh. The new cell state is
  forget · cell + input · candidate, the new hidden state is output · tanh (new cell).

  The law: a sum over the 2048 rows of a weight matrix is the sum over its first 1024 rows plus the sum over its last
  1024 rows. It holds in every commutative monoid, so on the extended reals it needs no finiteness.
-/
import Idealize.ShloMosaic.PureOps.Ideal
import Idealize.ShloMosaic.Lib.ValueIdx

noncomputable section

namespace Lstm

open Idealize.ShloMosaic Idealize.ShloMosaic.ValueIdx

/-- A batch of states or inputs: 4096 rows of 1024 numbers. -/
abbrev States : Shape := ⟨2, ![4096, 1024]⟩
/-- A gate's weights: 2048 rows (first the 1024 that meet the hidden state, then the 1024 that meet the input) by 1024 units. -/
abbrev Weights : Shape := ⟨2, ![2048, 1024]⟩
/-- A gate's bias: one number per unit. -/
abbrev Bias : Shape := ⟨1, ![1024]⟩
/-- The hidden state and the input side by side: 4096 rows of 2048 numbers. -/
abbrev Joined : Shape := ⟨2, ![4096, 2048]⟩
/-- 256 consecutive rows of a batch. -/
abbrev RowBlock : Shape := ⟨2, ![256, 1024]⟩
/-- One half of a gate's weights. -/
abbrev HalfWeights : Shape := ⟨2, ![1024, 1024]⟩
/-- A bias laid as a matrix of one row. -/
abbrev BiasRow : Shape := ⟨2, ![1, 1024]⟩

/-- Row `k` of the half of a weight matrix that meets the hidden state. -/
def lo (k : Fin 1024) : Fin 2048 := ⟨k.val, by omega⟩
/-- Row `k` of the half that meets the input. -/
def hi (k : Fin 1024) : Fin 2048 := ⟨1024 + k.val, by omega⟩

theorem lo_val (k : Fin 1024) : (lo k).val = k.val := rfl
theorem hi_val (k : Fin 1024) : (hi k).val = 1024 + k.val := rfl

/-- A sum over 2048 terms is the sum of the first 1024 plus the sum of the last 1024, in any commutative monoid. -/
theorem sum_halves {M : Type*} [AddCommMonoid M] (f : Fin 2048 → M) :
    ∑ k : Fin 2048, f k = (∑ k : Fin 1024, f (lo k)) + ∑ k : Fin 1024, f (hi k) :=
  Fin.sum_univ_add (a := 1024) (b := 1024) f

section Whole

variable (x h c : States.Idx → EReal) (W Wf Wi Wc Wo : Weights.Idx → EReal) (b bf bi bc bo : Bias.Idx → EReal)

/-- A gate before its activation, at batch row `p` and unit `q`: the hidden row against the first half of the weights,
    plus the input row against the second half, plus the bias. -/
def pre (p : Fin 4096) (q : Fin 1024) : EReal :=
  ((∑ k : Fin 1024, h (ix2 p k) * W (ix2 (lo k) q)) + ∑ k : Fin 1024, x (ix2 p k) * W (ix2 (hi k) q)) + b (ix1 q)

/-- With the hidden row and the input row laid side by side as one row of 2048 numbers, the two sums are one sum over
    all the rows of the weight matrix. -/
theorem joined_sum (cat : Joined.Idx → EReal) (p : Fin 4096) (q : Fin 1024)
    (hlo : ∀ k : Fin 1024, cat (ix2 p (lo k)) = h (ix2 p k)) (hhi : ∀ k : Fin 1024, cat (ix2 p (hi k)) = x (ix2 p k)) :
    ∑ k : Fin 2048, cat (ix2 p k) * W (ix2 k q)
      = (∑ k : Fin 1024, h (ix2 p k) * W (ix2 (lo k) q)) + ∑ k : Fin 1024, x (ix2 p k) * W (ix2 (hi k) q) := by
  rw [sum_halves]
  simp only [hlo, hhi]

/-- The new cell state at row `p`, unit `q`: forget · cell + input · candidate. -/
def cellAt (p : Fin 4096) (q : Fin 1024) : EReal :=
  Ideal.logistic (pre x h Wf bf p q) * c (ix2 p q) + Ideal.logistic (pre x h Wi bi p q) * Ideal.tanh (pre x h Wc bc p q)

/-- The new hidden state at row `p`, unit `q`: output · tanh (new cell). -/
def hiddenAt (p : Fin 4096) (q : Fin 1024) : EReal :=
  Ideal.logistic (pre x h Wo bo p q) * Ideal.tanh (cellAt x h c Wf Wi Wc bf bi bc p q)

/-- The new cell state as an array. -/
def newCell : States.Idx → EReal := fun j =>
  cellAt x h c Wf Wi Wc bf bi bc ⟨(j 0).val, idx2_lt0 j⟩ ⟨(j 1).val, idx2_lt1 j⟩

/-- The new hidden state as an array. -/
def newHidden : States.Idx → EReal := fun j =>
  hiddenAt x h c Wf Wi Wc Wo bf bi bc bo ⟨(j 0).val, idx2_lt0 j⟩ ⟨(j 1).val, idx2_lt1 j⟩

theorem newCell_ix2 (p : Fin 4096) (q : Fin 1024) :
    newCell x h c Wf Wi Wc bf bi bc (ix2 p q) = cellAt x h c Wf Wi Wc bf bi bc p q := rfl

theorem newHidden_ix2 (p : Fin 4096) (q : Fin 1024) :
    newHidden x h c Wf Wi Wc Wo bf bi bc bo (ix2 p q) = hiddenAt x h c Wf Wi Wc Wo bf bi bc bo p q := rfl

end Whole

section Blocks

variable (xb hb : RowBlock.Idx → EReal) (Wh Wx : HalfWeights.Idx → EReal) (bb : BiasRow.Idx → EReal)

/-- The same gate on one block of 256 batch rows, the two halves of the weights held as two matrices and the bias as
    a one-row matrix. -/
def preBlock (r : Fin 256) (q : Fin 1024) : EReal :=
  ((∑ k : Fin 1024, hb (ix2 r k) * Wh (ix2 k q)) + ∑ k : Fin 1024, xb (ix2 r k) * Wx (ix2 k q)) + bb (ix2 (0 : Fin 1) q)

/-- When row `r` of the block is row `p` of the batch, the two matrices are the two halves of `W` and the one-row matrix
    is `b`, the gate on the block is the gate on the batch. -/
theorem preBlock_eq_pre (x h : States.Idx → EReal) (W : Weights.Idx → EReal) (b : Bias.Idx → EReal)
    (p : Fin 4096) (r : Fin 256) (q : Fin 1024)
    (hh : ∀ k : Fin 1024, hb (ix2 r k) = h (ix2 p k)) (hx : ∀ k : Fin 1024, xb (ix2 r k) = x (ix2 p k))
    (hWh : ∀ k : Fin 1024, Wh (ix2 k q) = W (ix2 (lo k) q)) (hWx : ∀ k : Fin 1024, Wx (ix2 k q) = W (ix2 (hi k) q))
    (hb' : bb (ix2 (0 : Fin 1) q) = b (ix1 q)) :
    preBlock xb hb Wh Wx bb r q = pre x h W b p q := by
  unfold preBlock pre
  simp only [hh, hx, hWh, hWx, hb']

end Blocks

end Lstm

end
-- ==== Proof.RefIsLstm.lean ====
/-
  The reference computes the LSTM step of LstmSpec.

  The reference lays the hidden state and the input side by side as one row of 2048 numbers and multiplies by a whole
  weight matrix; that one sum over 2048 rows is the two sums over 1024 rows of the specification (`Lstm.joined_sum`).
  It spells the logistic function as 1 / (1 + exp (-z)), which on the extended reals is the function's definition.
  The four gates are the same text at different weights and biases, so each fact below is stated once, for any
  weight matrix and bias, and used for every gate.
-/
import proofs.«143583_j28698971472164_1_alg».proof.Proof.Gen.ReferenceIdeal.Read
import proofs.«143583_j28698971472164_1_alg».proof.Proof.LstmSpec

noncomputable section

namespace Cert.ReferenceIdeal.IsLstm

open Cert.ReferenceIdeal Cert.ReferenceIdeal.Gen Cert.ReferenceIdeal.Read Idealize.ShloMosaic Idealize.ShloMosaic.ValueIdx

variable (x0 x1 x2 : (⟨S4096x1024, .f32⟩ : BufTy).Contents (Elt Ideal))
  (W x3 x5 x7 x9 : (⟨S2048x1024, .f32⟩ : BufTy).Contents (Elt Ideal))
  (b x4 x6 x8 x10 : (⟨S1024, .f32⟩ : BufTy).Contents (Elt Ideal))

/-- The word 0x3F800000 is the number one. -/
theorem ofBits_one : Ideal.ofBits .f32 0x3F800000#32 = 1 := by
  simp [Ideal.ofBits, Ideal.ieee, -EReal.coe_mul]; norm_num

/-- Columns 0 … 1023 of the joined rows are the hidden state (the reference's second argument). -/
theorem joined_lo (p : Fin 4096) (k : Fin 1024) :
    val_main_v0 (F := Ideal) x0 x1 (ix2 p (Lstm.lo k)) = x1 (ix2 p k) := by
  unfold val_main_v0
  exact concatenate_pair_apply_left (1 : Fin 2) x1 x0 _ (ix2 p (Lstm.lo k)) rfl (ix2 p k)
    (fun a => match a with | ⟨0, _⟩ => rfl | ⟨1, _⟩ => rfl)

/-- Columns 1024 … 2047 of the joined rows are the input (the reference's first argument). -/
theorem joined_hi (p : Fin 4096) (k : Fin 1024) :
    val_main_v0 (F := Ideal) x0 x1 (ix2 p (Lstm.hi k)) = x0 (ix2 p k) := by
  unfold val_main_v0
  exact concatenate_pair_apply_right (1 : Fin 2) x1 x0 _ (ix2 p (Lstm.hi k)) rfl rfl (ix2 p k)
    (fun a ha => match a, ha with | ⟨0, _⟩, _ => rfl | ⟨1, _⟩, ha => absurd rfl ha)
    (Nat.add_comm _ _)

/-- A gate before its activation: the joined row against the whole weight matrix, plus the bias. -/
theorem pre_ref (p : Fin 4096) (q : Fin 1024) :
    val_main_v4 (F := Ideal) x0 x1 W b (ix2 p q) = Lstm.pre x0 x1 W b p q := by
  rw [val_main_v4_apply, val_main_v1_apply, val_main_v3_apply, val_main_v2_apply]
  have el : ∀ k : Fin 2048, lidx_main_v1 (ix2 p q) k = ix2 p k := fun k => funext fun a => Fin.ext (by
    match a with
    | ⟨0, _⟩ => rfl
    | ⟨1, _⟩ => rfl)
  have er : ∀ k : Fin 2048, ridx_main_v1 (ix2 p q) k = ix2 k q := fun k => funext fun a => Fin.ext (by
    match a with
    | ⟨0, _⟩ => rfl
    | ⟨1, _⟩ => rfl)
  have eb : idx_main_v2 (idx_main_v3 (ix2 p q)) = ix1 q := funext fun a => Fin.ext (by
    match a with
    | ⟨0, _⟩ => rfl)
  simp only [el, er, eb]
  rw [Lstm.joined_sum x0 x1 W (val_main_v0 (F := Ideal) x0 x1) p q (joined_lo x0 x1 p) (joined_hi x0 x1 p)]
  rfl

/-- A logistic gate: the reference's 1 / (1 + exp (-z)) is the logistic function of z. -/
theorem logistic_ref (p : Fin 4096) (q : Fin 1024) :
    val_main_v10 (F := Ideal) x0 x1 W b (ix2 p q) = Ideal.logistic (Lstm.pre x0 x1 W b p q) := by
  rw [val_main_v10_apply, val_main_v9_apply, val_main_cst_0_apply, val_main_v8_apply, val_main_v7_apply,
    val_main_cst_apply, val_main_v6_apply, val_main_v5_apply, pre_ref]
  show Ideal.div (Ideal.ofBits .f32 0x3F800000#32) (Ideal.ofBits .f32 0x3F800000#32 + Ideal.exp (-(Lstm.pre x0 x1 W b p q))) = _
  rw [ofBits_one]
  rfl

/-- The candidate gate: tanh of the pre-activation. -/
theorem tanh_ref (p : Fin 4096) (q : Fin 1024) :
    val_main_v25 (F := Ideal) x0 x1 W b (ix2 p q) = Ideal.tanh (Lstm.pre x0 x1 W b p q) := by
  have e : val_main_v24 (F := Ideal) x0 x1 W b = val_main_v4 (F := Ideal) x0 x1 W b := rfl
  rw [val_main_v25_apply, e, pre_ref]
  rfl

/-- The reference's second result, entry by entry, is the new cell state. -/
theorem cell_ref (p : Fin 4096) (q : Fin 1024) :
    val_main_v28 (F := Ideal) x0 x1 x2 x3 x4 x5 x6 x7 x8 (ix2 p q) = Lstm.cellAt x0 x1 x2 x3 x5 x7 x4 x6 x8 p q := by
  rw [val_main_v28_apply, val_main_v26_apply, val_main_v27_apply]
  show val_main_v10 (F := Ideal) x0 x1 x3 x4 (ix2 p q) * x2 (ix2 p q)
      + val_main_v10 (F := Ideal) x0 x1 x5 x6 (ix2 p q) * val_main_v25 (F := Ideal) x0 x1 x7 x8 (ix2 p q) = _
  rw [logistic_ref, logistic_ref, tanh_ref]
  rfl

/-- The reference's first result, entry by entry, is the new hidden state. -/
theorem hidden_ref (p : Fin 4096) (q : Fin 1024) :
    val_main_v40 (F := Ideal) x0 x1 x2 x3 x4 x5 x6 x7 x8 x9 x10 (ix2 p q)
      = Lstm.hiddenAt x0 x1 x2 x3 x5 x7 x9 x4 x6 x8 x10 p q := by
  rw [val_main_v40_apply, val_main_v39_apply]
  show val_main_v10 (F := Ideal) x0 x1 x9 x10 (ix2 p q)
      * Ideal.tanh (val_main_v28 (F := Ideal) x0 x1 x2 x3 x4 x5 x6 x7 x8 (ix2 p q)) = _
  rw [logistic_ref, cell_ref]
  rfl

/-- The reference's second result is the new cell state. -/
theorem newCell_ref :
    val_main_v28 (F := Ideal) x0 x1 x2 x3 x4 x5 x6 x7 x8 = Lstm.newCell x0 x1 x2 x3 x5 x7 x4 x6 x8 := by
  funext j
  obtain ⟨p, q, rfl⟩ : ∃ (p : Fin 4096) (q : Fin 1024), j = ix2 p q := ⟨j 0, j 1, eq_ix2 j⟩
  rw [cell_ref, Lstm.newCell_ix2]

/-- The reference's first result is the new hidden state. -/
theorem newHidden_ref :
    val_main_v40 (F := Ideal) x0 x1 x2 x3 x4 x5 x6 x7 x8 x9 x10 = Lstm.newHidden x0 x1 x2 x3 x5 x7 x9 x4 x6 x8 x10 := by
  funext j
  obtain ⟨p, q, rfl⟩ : ∃ (p : Fin 4096) (q : Fin 1024), j = ix2 p q := ⟨j 0, j 1, eq_ix2 j⟩
  rw [hidden_ref, Lstm.newHidden_ix2]

end Cert.ReferenceIdeal.IsLstm

end
-- ==== Proof.LstmBlock.lean ====
/-
  The LSTM step on one block of 256 batch rows, as a kernel that tiles the batch sees it: each gate's weights arrive as
  two 1024 × 1024 matrices (the half that meets the hidden state and the half that meets the input) and each bias as a
  matrix of one row. When row `r` of the block is row `p` of the batch and the pieces are the halves of the whole
  matrices, the step on the block at (r, q) is the step on the batch at (p, q): every sum has the same terms.
-/
import proofs.«143583_j28698971472164_1_alg».proof.Proof.LstmSpec

noncomputable section

namespace Lstm

open Idealize.ShloMosaic Idealize.ShloMosaic.ValueIdx

variable (xb hb cb : RowBlock.Idx → EReal) (Wfh Wfx Wih Wix Wch Wcx Woh Wox : HalfWeights.Idx → EReal)
  (bfb bib bcb bob : BiasRow.Idx → EReal)

/-- The new cell state on the block at row `r`, unit `q`. -/
def cellBlockAt (r : Fin 256) (q : Fin 1024) : EReal :=
  Ideal.logistic (preBlock xb hb Wfh Wfx bfb r q) * cb (ix2 r q)
    + Ideal.logistic (preBlock xb hb Wih Wix bib r q) * Ideal.tanh (preBlock xb hb Wch Wcx bcb r q)

/-- The new hidden state on the block at row `r`, unit `q`. -/
def hiddenBlockAt (r : Fin 256) (q : Fin 1024) : EReal :=
  Ideal.logistic (preBlock xb hb Woh Wox bob r q) * Ideal.tanh (cellBlockAt xb hb cb Wfh Wfx Wih Wix Wch Wcx bfb bib bcb r q)

section Agree

variable (x h c : States.Idx → EReal) (Wf Wi Wc Wo : Weights.Idx → EReal) (bf bi bc bo : Bias.Idx → EReal)
  (p : Fin 4096) (r : Fin 256) (q : Fin 1024)
  (hh : ∀ k : Fin 1024, hb (ix2 r k) = h (ix2 p k)) (hx : ∀ k : Fin 1024, xb (ix2 r k) = x (ix2 p k))
  (hc : cb (ix2 r q) = c (ix2 p q))
  (ffh : ∀ k : Fin 1024, Wfh (ix2 k q) = Wf (ix2 (lo k) q)) (ffx : ∀ k : Fin 1024, Wfx (ix2 k q) = Wf (ix2 (hi k) q))
  (fih : ∀ k : Fin 1024, Wih (ix2 k q) = Wi (ix2 (lo k) q)) (fix : ∀ k : Fin 1024, Wix (ix2 k q) = Wi (ix2 (hi k) q))
  (fch : ∀ k : Fin 1024, Wch (ix2 k q) = Wc (ix2 (lo k) q)) (fcx : ∀ k : Fin 1024, Wcx (ix2 k q) = Wc (ix2 (hi k) q))
  (foh : ∀ k : Fin 1024, Woh (ix2 k q) = Wo (ix2 (lo k) q)) (fox : ∀ k : Fin 1024, Wox (ix2 k q) = Wo (ix2 (hi k) q))
  (ebf : bfb (ix2 (0 : Fin 1) q) = bf (ix1 q)) (ebi : bib (ix2 (0 : Fin 1) q) = bi (ix1 q))
  (ebc : bcb (ix2 (0 : Fin 1) q) = bc (ix1 q)) (ebo : bob (ix2 (0 : Fin 1) q) = bo (ix1 q))

include hh hx hc ffh ffx fih fix fch fcx ebf ebi ebc in
/-- The cell state on the block is the cell state on the batch. -/
theorem cellBlockAt_eq :
    cellBlockAt xb hb cb Wfh Wfx Wih Wix Wch Wcx bfb bib bcb r q = cellAt x h c Wf Wi Wc bf bi bc p q := by
  unfold cellBlockAt cellAt
  rw [preBlock_eq_pre xb hb Wfh Wfx bfb x h Wf bf p r q hh hx ffh ffx ebf,
    preBlock_eq_pre xb hb Wih Wix bib x h Wi bi p r q hh hx fih fix ebi,
    preBlock_eq_pre xb hb Wch Wcx bcb x h Wc bc p r q hh hx fch fcx ebc, hc]

include hh hx hc ffh ffx fih fix fch fcx foh fox ebf ebi ebc ebo in
/-- The hidden state on the block is the hidden state on the batch. -/
theorem hiddenBlockAt_eq :
    hiddenBlockAt xb hb cb Wfh Wfx Wih Wix Wch Wcx Woh Wox bfb bib bcb bob r q
      = hiddenAt x h c Wf Wi Wc Wo bf bi bc bo p q := by
  unfold hiddenBlockAt hiddenAt
  rw [preBlock_eq_pre xb hb Woh Wox bob x h Wo bo p r q hh hx foh fox ebo,
    cellBlockAt_eq xb hb cb Wfh Wfx Wih Wix Wch Wcx bfb bib bcb x h c Wf Wi Wc bf bi bc p r q
      hh hx hc ffh ffx fih fix fch fcx ebf ebi ebc]

end Agree

end Lstm

end
-- ==== Proof.KernelPayload.lean ====
/-
  What the kernel's body computes on one block, entry by entry.

  On a block of 256 batch rows the body forms each gate as (hidden block · first half of the weights) + (input block ·
  second half) + the bias row copied down the 256 rows, the two products each a matrix product into a zero accumulator.
  At the exact values a change of number format is the identity and such a product read at (r, q) is the sum over the
  1024 contracted positions, so each gate is `Lstm.preBlock` and the two stored values are `Lstm.cellBlockAt` and
  `Lstm.hiddenBlockAt`.
-/
import proofs.«143583_j28698971472164_1_alg».proof.Proof.Gen.KernelIdeal.Skeleton
import proofs.«143583_j28698971472164_1_alg».proof.Proof.LstmBlock
import Idealize.ShloMosaic.PureOps.Ideal.Laws
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx

/-- The left operand's row coordinate is the output's. -/
theorem lhs_row (i : S256x1024.Idx) (s : dot_S256x1024_S1024x1024_S256x1024_1_0_0_1_n_n.contr.Idx) :
    (dot_S256x1024_S1024x1024_S256x1024_1_0_0_1_n_n.lhsIdx i s 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

/-- The right operand's column coordinate is the output's. -/
theorem rhs_col (i : S256x1024.Idx) (s : dot_S256x1024_S1024x1024_S256x1024_1_0_0_1_n_n.contr.Idx) :
    (dot_S256x1024_S1024x1024_S256x1024_1_0_0_1_n_n.rhsIdx i s 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- A 256 × 1024 by 1024 × 1024 product into a zero accumulator, read at (r, q), is the sum over the 1024 contracted
    positions of the entries' products. -/
theorem matmul_zero_apply (A : FVec Ideal S256x1024 .bf16) (B : FVec Ideal S1024x1024 .bf16) (r : Fin 256) (q : Fin 1024) :
    matmul dot_S256x1024_S1024x1024_S256x1024_1_0_0_1_n_n none A B (constant (F := Ideal) S256x1024 .f32 0x00000000#32) (ix2 r q)
      = ∑ k : Fin 1024, A (ix2 r k) * B (ix2 k q) := by
  simp only [matmul]
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r q)
      ((contrEquiv1 dot_S256x1024_S1024x1024_S256x1024_1_0_0_1_n_n 1024 rfl rfl).symm k) = ix2 r k :=
    funext fun a => Fin.ext (by
      match a with
      | ⟨0, _⟩ => exact lhs_row _ _
      | ⟨1, _⟩ => exact (dot_S256x1024_S1024x1024_S256x1024_1_0_0_1_n_n.lhsIdx_val_of_single rfl _ _).trans hk)
  have er : dot_S256x1024_S1024x1024_S256x1024_1_0_0_1_n_n.rhsIdx (ix2 r q)
      ((contrEquiv1 dot_S256x1024_S1024x1024_S256x1024_1_0_0_1_n_n 1024 rfl rfl).symm k) = ix2 k q :=
    funext fun a => Fin.ext (by
      match a with
      | ⟨0, _⟩ => exact (dot_S256x1024_S1024x1024_S256x1024_1_0_0_1_n_n.rhsIdx_val_of_single rfl _ _).trans hk
      | ⟨1, _⟩ => exact rhs_col _ _)
  rw [el, er]

variable (xb hb cb : Vec Ideal S256x1024 .f32) (Wh Wx Wfh Wfx Wih Wix Wch Wcx Woh Wox : Vec Ideal S1024x1024 .bf16)
  (bb bfb bib bcb bob : Vec Ideal S1x1024 .f32)

/-- One gate before its activation, as the body spells it on a block. -/
def gateVec : FVec Ideal S256x1024 .f32 :=
  addf (addf
      (matmul dot_S256x1024_S1024x1024_S256x1024_1_0_0_1_n_n none (k0_pay3 hb)
        (shapeCast S1024x1024 Wh shapeCasts_S1024x1024_S1024x1024 : FVec Ideal S1024x1024 .bf16)
        (constant S256x1024 .f32 0x00000000#32))
      (matmul dot_S256x1024_S1024x1024_S256x1024_1_0_0_1_n_n none (k0_pay4 xb)
        (shapeCast S1024x1024 Wx shapeCasts_S1024x1024_S1024x1024 : FVec Ideal S1024x1024 .bf16)
        (constant S256x1024 .f32 0x00000000#32)))
    (broadcastTo S256x1024 (shapeCast S1x1024 bb shapeCasts_S1x1024_S1x1024 : FVec Ideal S1x1024 .f32)
      broadcasts_S1x1024_S256x1024)

/-- Read at (r, q) it is the gate of the specification on the block. -/
theorem gateVec_apply (r : Fin 256) (q : Fin 1024) :
    gateVec xb hb Wh Wx bb (ix2 r q) = Lstm.preBlock xb hb Wh Wx bb r q := by
  unfold gateVec
  rw [addf_apply, addf_apply, matmul_zero_apply, matmul_zero_apply, shapeCast_self, shapeCast_self, shapeCast_self,
    broadcastTo_1b_ab_apply]
  rfl

/-- The forget gate's payload is the logistic function of its gate. -/
theorem pay5_eq : k0_pay5 hb xb Wh Wx bb = logistic (gateVec xb hb Wh Wx bb) := rfl
/-- The input gate's payload likewise. -/
theorem pay6_eq : k0_pay6 hb xb Wh Wx bb = logistic (gateVec xb hb Wh Wx bb) := rfl

/-- The value stored as the new cell state, over the gates' payloads. -/
theorem pay1_eq (f i : FVec Ideal S256x1024 .f32) :
    k0_pay1 cb (k0_pay4 xb) f i (k0_pay7 hb Wch) Wcx bcb = addf (mulf f cb) (mulf i (tanh (gateVec xb hb Wch Wcx bcb))) := rfl

/-- The value stored as the new hidden state, over the gates' payloads. -/
theorem pay2_eq (f i : FVec Ideal S256x1024 .f32) :
    k0_pay2 cb (k0_pay3 hb) (k0_pay4 xb) f i (k0_pay7 hb Wch) Wcx bcb Woh Wox bob
      = mulf (logistic (gateVec xb hb Woh Wox bob)) (tanh (k0_pay1 cb (k0_pay4 xb) f i (k0_pay7 hb Wch) Wcx bcb)) := rfl

/-- The new cell state the body stores, at (r, q). -/
theorem cell_apply (r : Fin 256) (q : Fin 1024) :
    k0_pay1 cb (k0_pay4 xb) (k0_pay5 hb xb Wfh Wfx bfb) (k0_pay6 hb xb Wih Wix bib) (k0_pay7 hb Wch) Wcx bcb (ix2 r q)
      = Lstm.cellBlockAt xb hb cb Wfh Wfx Wih Wix Wch Wcx bfb bib bcb r q := by
  rw [pay1_eq, pay5_eq, pay6_eq]
  show Ideal.logistic (gateVec xb hb Wfh Wfx bfb (ix2 r q)) * cb (ix2 r q)
      + Ideal.logistic (gateVec xb hb Wih Wix bib (ix2 r q)) * Ideal.tanh (gateVec xb hb Wch Wcx bcb (ix2 r q)) = _
  rw [gateVec_apply, gateVec_apply, gateVec_apply]
  rfl

/-- The new hidden state the body stores, at (r, q). -/
theorem hidden_apply (r : Fin 256) (q : Fin 1024) :
    k0_pay2 cb (k0_pay3 hb) (k0_pay4 xb) (k0_pay5 hb xb Wfh Wfx bfb) (k0_pay6 hb xb Wih Wix bib) (k0_pay7 hb Wch) Wcx bcb
        Woh Wox bob (ix2 r q)
      = Lstm.hiddenBlockAt xb hb cb Wfh Wfx Wih Wix Wch Wcx Woh Wox bfb bib bcb bob r q := by
  rw [pay2_eq]
  show Ideal.logistic (gateVec xb hb Woh Wox bob (ix2 r q))
      * Ideal.tanh (k0_pay1 cb (k0_pay4 xb) (k0_pay5 hb xb Wfh Wfx bfb) (k0_pay6 hb xb Wih Wix bib) (k0_pay7 hb Wch) Wcx bcb (ix2 r q)) = _
  rw [gateVec_apply, cell_apply]
  rfl

end Cert.KernelIdeal.Payload

end
-- ==== Proof.KernelBlocks.lean ====
/-
  From the blocks the kernel works on to the whole arrays.

  The kernel runs at 16 grid points; at point `t` it sees rows 256 t … 256 t + 255 of the hidden state, the input and the
  cell state, the same eight half weight matrices and four bias rows at every point, and writes rows 256 t … 256 t + 255
  of the two results. The half matrices are the first and the last 1024 rows of each gate's weights (cut out, and
  changed in number format, before the kernel is launched: at the exact values that change is the identity), and each
  bias row is the bias laid as a matrix of one row. So what point `t` writes back is block `t` of the specification's
  arrays, the 16 blocks tile the 4096 rows, and after the run the two result arrays are `Lstm.newHidden` and
  `Lstm.newCell` of the arguments.
-/
import proofs.«143583_j28698971472164_1_alg».proof.Proof.Gen.KernelIdeal.Value
import proofs.«143583_j28698971472164_1_alg».proof.Proof.KernelPayload
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 16 grid points -/

theorem idx_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_w2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_w15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)
theorem idx_w16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)

theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_w8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_w9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_w10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_w11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx_w12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx_w13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx_w14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

/-- Row `r` of the block at grid point `t` is row 256 t + r of the batch. -/
def row (t : Fin cfg0.N) (r : Fin 256) : Fin 4096 :=
  ⟨256 * t.val + r.val, by have h1 := t.isLt; have hN : cfg0.N = 16 := N_0; have h2 := r.isLt; omega⟩

theorem row_val (t : Fin cfg0.N) (r : Fin 256) : (row t r).val = 256 * t.val + r.val := rfl

/-! ## The three row-blocked inputs -/

/-- The first window's block at point `t` is rows 256 t … of the hidden state. -/
theorem hidden_rows (c : Dev nD) (t : Fin cfg0.N) (r : Fin 256) (k : Fin 1024) :
    (iblk m c 0 t : Vec Ideal S256x1024 .f32) (ix2 r k) = ((m ((c : Thread nD τ).loc main_arg1)) : S4096x1024.Idx → EReal) (ix2 (row t r) k) := by
  obtain ⟨e0, e1⟩ := idx_w0 t
  unfold iblk
  rw [View.read_apply]
  show V m c main_arg1 _ = _
  rw [V_main_arg1 m c]
  congr 1
  funext a; apply Fin.ext
  match a with
  | ⟨0, _⟩ => show win0_0.index t 0 * 256 + 1 * r.val = 256 * t.val + r.val; rw [e0]; omega
  | ⟨1, _⟩ => show win0_0.index t 1 * 1024 + 1 * k.val = k.val; rw [e1]; omega

/-- The second window's block at point `t` is rows 256 t … of the input. -/
theorem input_rows (c : Dev nD) (t : Fin cfg0.N) (r : Fin 256) (k : Fin 1024) :
    (iblk m c 1 t : Vec Ideal S256x1024 .f32) (ix2 r k) = ((m ((c : Thread nD τ).loc main_arg0)) : S4096x1024.Idx → EReal) (ix2 (row t r) k) := by
  obtain ⟨e0, e1⟩ := idx_w1 t
  unfold iblk
  rw [View.read_apply]
  show V m c main_arg0 _ = _
  rw [V_main_arg0 m c]
  congr 1
  funext a; apply Fin.ext
  match a with
  | ⟨0, _⟩ => show win0_1.index t 0 * 256 + 1 * r.val = 256 * t.val + r.val; rw [e0]; omega
  | ⟨1, _⟩ => show win0_1.index t 1 * 1024 + 1 * k.val = k.val; rw [e1]; omega

/-- The third window's block at point `t` is rows 256 t … of the cell state. -/
theorem cell_rows (c : Dev nD) (t : Fin cfg0.N) (r : Fin 256) (k : Fin 1024) :
    (iblk m c 2 t : Vec Ideal S256x1024 .f32) (ix2 r k) = ((m ((c : Thread nD τ).loc main_arg2)) : S4096x1024.Idx → EReal) (ix2 (row t r) k) := by
  obtain ⟨e0, e1⟩ := idx_w2 t
  unfold iblk
  rw [View.read_apply]
  show V m c main_arg2 _ = _
  rw [V_main_arg2 m c]
  congr 1
  funext a; apply Fin.ext
  match a with
  | ⟨0, _⟩ => show win0_2.index t 0 * 256 + 1 * r.val = 256 * t.val + r.val; rw [e0]; omega
  | ⟨1, _⟩ => show win0_2.index t 1 * 1024 + 1 * k.val = k.val; rw [e1]; omega

/-! ## The half weight matrices and the bias rows, as the region finds them -/

/-- The first 1024 rows of a weight matrix, in the narrower number format, read at (k, q). -/
theorem lo_half (X : FVec Ideal S2048x1024 .f32) (k q : Fin 1024) :
    (truncf .bf16 (extractStridedSlice S1024x1024 ![0, 0] X slices_S2048x1024_S1024x1024_0_0 : FVec Ideal S1024x1024 .f32) bitsLt_bf16_f32 : FVec Ideal S1024x1024 .bf16) (ix2 k q)
      = X (ix2 (Lstm.lo k) q) :=
  slice2_axis0_apply 0 X slices_S2048x1024_S1024x1024_0_0 k q (Lstm.lo k) (by rw [Lstm.lo_val]; omega)

/-- The last 1024 rows likewise. -/
theorem hi_half (X : FVec Ideal S2048x1024 .f32) (k q : Fin 1024) :
    (truncf .bf16 (extractStridedSlice S1024x1024 ![1024, 0] X slices_S2048x1024_S1024x1024_1024_0 : FVec Ideal S1024x1024 .f32) bitsLt_bf16_f32 : FVec Ideal S1024x1024 .bf16) (ix2 k q)
      = X (ix2 (Lstm.hi k) q) :=
  slice2_axis0_apply 1024 X slices_S2048x1024_S1024x1024_1024_0 k q (Lstm.hi k) (by rw [Lstm.hi_val])

theorem V_main_v1 (c : Dev nD) : (V m c main_v1 : S1024x1024.Idx → EReal)
    = (truncf .bf16 (extractStridedSlice S1024x1024 ![0, 0] ((m ((c : Thread nD τ).loc main_arg3)) : FVec Ideal S2048x1024 .f32) slices_S2048x1024_S1024x1024_0_0 : FVec Ideal S1024x1024 .f32) bitsLt_bf16_f32 : FVec Ideal S1024x1024 .bf16) := by
  dsimp only [V, hostOps0]; after_results
theorem V_main_v3 (c : Dev nD) : (V m c main_v3 : S1024x1024.Idx → EReal)
    = (truncf .bf16 (extractStridedSlice S1024x1024 ![1024, 0] ((m ((c : Thread nD τ).loc main_arg3)) : FVec Ideal S2048x1024 .f32) slices_S2048x1024_S1024x1024_1024_0 : FVec Ideal S1024x1024 .f32) bitsLt_bf16_f32 : FVec Ideal S1024x1024 .bf16) := by
  dsimp only [V, hostOps0]; after_results
theorem V_main_v16 (c : Dev nD) : (V m c main_v16 : S1x1024.Idx → EReal)
    = (shapeCast S1x1024 ((m ((c : Thread nD τ).loc main_arg4)) : FVec Ideal S1024 .f32) shapeCasts_S1024_S1x1024 : FVec Ideal S1x1024 .f32) := by
  dsimp only [V, hostOps0]; after_results; rfl
theorem V_main_v5 (c : Dev nD) : (V m c main_v5 : S1024x1024.Idx → EReal)
    = (truncf .bf16 (extractStridedSlice S1024x1024 ![0, 0] ((m ((c : Thread nD τ).loc main_arg5)) : FVec Ideal S2048x1024 .f32) slices_S2048x1024_S1024x1024_0_0 : FVec Ideal S1024x1024 .f32) bitsLt_bf16_f32 : FVec Ideal S1024x1024 .bf16) := by
  dsimp only [V, hostOps0]; after_results
theorem V_main_v7 (c : Dev nD) : (V m c main_v7 : S1024x1024.Idx → EReal)
    = (truncf .bf16 (extractStridedSlice S1024x1024 ![1024, 0] ((m ((c : Thread nD τ).loc main_arg5)) : FVec Ideal S2048x1024 .f32) slices_S2048x1024_S1024x1024_1024_0 : FVec Ideal S1024x1024 .f32) bitsLt_bf16_f32 : FVec Ideal S1024x1024 .bf16) := by
  dsimp only [V, hostOps0]; after_results
theorem V_main_v17 (c : Dev nD) : (V m c main_v17 : S1x1024.Idx → EReal)
    = (shapeCast S1x1024 ((m ((c : Thread nD τ).loc main_arg6)) : FVec Ideal S1024 .f32) shapeCasts_S1024_S1x1024 : FVec Ideal S1x1024 .f32) := by
  dsimp only [V, hostOps0]; after_results; rfl
theorem V_main_v9 (c : Dev nD) : (V m c main_v9 : S1024x1024.Idx → EReal)
    = (truncf .bf16 (extractStridedSlice S1024x1024 ![0, 0] ((m ((c : Thread nD τ).loc main_arg7)) : FVec Ideal S2048x1024 .f32) slices_S2048x1024_S1024x1024_0_0 : FVec Ideal S1024x1024 .f32) bitsLt_bf16_f32 : FVec Ideal S1024x1024 .bf16) := by
  dsimp only [V, hostOps0]; after_results
theorem V_main_v11 (c : Dev nD) : (V m c main_v11 : S1024x1024.Idx → EReal)
    = (truncf .bf16 (extractStridedSlice S1024x1024 ![1024, 0] ((m ((c : Thread nD τ).loc main_arg7)) : FVec Ideal S2048x1024 .f32) slices_S2048x1024_S1024x1024_1024_0 : FVec Ideal S1024x1024 .f32) bitsLt_bf16_f32 : FVec Ideal S1024x1024 .bf16) := by
  dsimp only [V, hostOps0]; after_results
theorem V_main_v18 (c : Dev nD) : (V m c main_v18 : S1x1024.Idx → EReal)
    = (shapeCast S1x1024 ((m ((c : Thread nD τ).loc main_arg8)) : FVec Ideal S1024 .f32) shapeCasts_S1024_S1x1024 : FVec Ideal S1x1024 .f32) := by
  dsimp only [V, hostOps0]; after_results; rfl
theorem V_main_v13 (c : Dev nD) : (V m c main_v13 : S1024x1024.Idx → EReal)
    = (truncf .bf16 (extractStridedSlice S1024x1024 ![0, 0] ((m ((c : Thread nD τ).loc main_arg9)) : FVec Ideal S2048x1024 .f32) slices_S2048x1024_S1024x1024_0_0 : FVec Ideal S1024x1024 .f32) bitsLt_bf16_f32 : FVec Ideal S1024x1024 .bf16) := by
  dsimp only [V, hostOps0]; after_results
theorem V_main_v15 (c : Dev nD) : (V m c main_v15 : S1024x1024.Idx → EReal)
    = (truncf .bf16 (extractStridedSlice S1024x1024 ![1024, 0] ((m ((c : Thread nD τ).loc main_arg9)) : FVec Ideal S2048x1024 .f32) slices_S2048x1024_S1024x1024_1024_0 : FVec Ideal S1024x1024 .f32) bitsLt_bf16_f32 : FVec Ideal S1024x1024 .bf16) := by
  dsimp only [V, hostOps0]; after_results
theorem V_main_v19 (c : Dev nD) : (V m c main_v19 : S1x1024.Idx → EReal)
    = (shapeCast S1x1024 ((m ((c : Thread nD τ).loc main_arg10)) : FVec Ideal S1024 .f32) shapeCasts_S1024_S1x1024 : FVec Ideal S1x1024 .f32) := by
  dsimp only [V, hostOps0]; after_results; rfl

/-! ## The weights' and biases' windows: one block, the whole array, at every point -/

/-- The forget gate's hidden-side half. -/
theorem wfh_block (c : Dev nD) (t : Fin cfg0.N) (k q : Fin 1024) :
    (iblk m c 3 t : Vec Ideal S1024x1024 .bf16) (ix2 k q) = ((m ((c : Thread nD τ).loc main_arg3)) : S2048x1024.Idx → EReal) (ix2 (Lstm.lo k) q) := by
  obtain ⟨e0, e1⟩ := idx_w3 t
  have eb : (iblk m c 3 t : Vec Ideal S1024x1024 .bf16) (ix2 k q) = (V m c main_v1 : S1024x1024.Idx → EReal) (ix2 k q) := by
    unfold iblk
    rw [View.read_apply]
    show V m c main_v1 _ = V m c main_v1 _
    congr 1
    funext a; apply Fin.ext
    match a with
    | ⟨0, _⟩ => show win0_3.index t 0 * 1024 + 1 * k.val = k.val; rw [e0]; omega
    | ⟨1, _⟩ => show win0_3.index t 1 * 1024 + 1 * q.val = q.val; rw [e1]; omega
  rw [eb, V_main_v1 m c]
  exact lo_half _ k q

/-- The forget gate's input-side half. -/
theorem wfx_block (c : Dev nD) (t : Fin cfg0.N) (k q : Fin 1024) :
    (iblk m c 4 t : Vec Ideal S1024x1024 .bf16) (ix2 k q) = ((m ((c : Thread nD τ).loc main_arg3)) : S2048x1024.Idx → EReal) (ix2 (Lstm.hi k) q) := by
  obtain ⟨e0, e1⟩ := idx_w4 t
  have eb : (iblk m c 4 t : Vec Ideal S1024x1024 .bf16) (ix2 k q) = (V m c main_v3 : S1024x1024.Idx → EReal) (ix2 k q) := by
    unfold iblk
    rw [View.read_apply]
    show V m c main_v3 _ = V m c main_v3 _
    congr 1
    funext a; apply Fin.ext
    match a with
    | ⟨0, _⟩ => show win0_4.index t 0 * 1024 + 1 * k.val = k.val; rw [e0]; omega
    | ⟨1, _⟩ => show win0_4.index t 1 * 1024 + 1 * q.val = q.val; rw [e1]; omega
  rw [eb, V_main_v3 m c]
  exact hi_half _ k q

/-- The forget gate's bias row. -/
theorem bf_block (c : Dev nD) (t : Fin cfg0.N) (q : Fin 1024) :
    (iblk m c 11 t : Vec Ideal S1x1024 .f32) (ix2 (0 : Fin 1) q) = ((m ((c : Thread nD τ).loc main_arg4)) : S1024.Idx → EReal) (ix1 q) := by
  obtain ⟨e0, e1⟩ := idx_w11 t
  have eb : (iblk m c 11 t : Vec Ideal S1x1024 .f32) (ix2 (0 : Fin 1) q) = (V m c main_v16 : S1x1024.Idx → EReal) (ix2 (0 : Fin 1) q) := by
    unfold iblk
    rw [View.read_apply]
    show V m c main_v16 _ = V m c main_v16 _
    congr 1
    funext a; apply Fin.ext
    match a with
    | ⟨0, _⟩ => show win0_11.index t 0 * 1 + 1 * 0 = 0; rw [e0]
    | ⟨1, _⟩ => show win0_11.index t 1 * 1024 + 1 * q.val = q.val; rw [e1]; omega
  rw [eb, V_main_v16 m c]
  exact shapeCast_a_1a_apply _ _ 0 q

/-- The input gate's hidden-side half. -/
theorem wih_block (c : Dev nD) (t : Fin cfg0.N) (k q : Fin 1024) :
    (iblk m c 5 t : Vec Ideal S1024x1024 .bf16) (ix2 k q) = ((m ((c : Thread nD τ).loc main_arg5)) : S2048x1024.Idx → EReal) (ix2 (Lstm.lo k) q) := by
  obtain ⟨e0, e1⟩ := idx_w5 t
  have eb : (iblk m c 5 t : Vec Ideal S1024x1024 .bf16) (ix2 k q) = (V m c main_v5 : S1024x1024.Idx → EReal) (ix2 k q) := by
    unfold iblk
    rw [View.read_apply]
    show V m c main_v5 _ = V m c main_v5 _
    congr 1
    funext a; apply Fin.ext
    match a with
    | ⟨0, _⟩ => show win0_5.index t 0 * 1024 + 1 * k.val = k.val; rw [e0]; omega
    | ⟨1, _⟩ => show win0_5.index t 1 * 1024 + 1 * q.val = q.val; rw [e1]; omega
  rw [eb, V_main_v5 m c]
  exact lo_half _ k q

/-- The input gate's input-side half. -/
theorem wix_block (c : Dev nD) (t : Fin cfg0.N) (k q : Fin 1024) :
    (iblk m c 6 t : Vec Ideal S1024x1024 .bf16) (ix2 k q) = ((m ((c : Thread nD τ).loc main_arg5)) : S2048x1024.Idx → EReal) (ix2 (Lstm.hi k) q) := by
  obtain ⟨e0, e1⟩ := idx_w6 t
  have eb : (iblk m c 6 t : Vec Ideal S1024x1024 .bf16) (ix2 k q) = (V m c main_v7 : S1024x1024.Idx → EReal) (ix2 k q) := by
    unfold iblk
    rw [View.read_apply]
    show V m c main_v7 _ = V m c main_v7 _
    congr 1
    funext a; apply Fin.ext
    match a with
    | ⟨0, _⟩ => show win0_6.index t 0 * 1024 + 1 * k.val = k.val; rw [e0]; omega
    | ⟨1, _⟩ => show win0_6.index t 1 * 1024 + 1 * q.val = q.val; rw [e1]; omega
  rw [eb, V_main_v7 m c]
  exact hi_half _ k q

/-- The input gate's bias row. -/
theorem bi_block (c : Dev nD) (t : Fin cfg0.N) (q : Fin 1024) :
    (iblk m c 12 t : Vec Ideal S1x1024 .f32) (ix2 (0 : Fin 1) q) = ((m ((c : Thread nD τ).loc main_arg6)) : S1024.Idx → EReal) (ix1 q) := by
  obtain ⟨e0, e1⟩ := idx_w12 t
  have eb : (iblk m c 12 t : Vec Ideal S1x1024 .f32) (ix2 (0 : Fin 1) q) = (V m c main_v17 : S1x1024.Idx → EReal) (ix2 (0 : Fin 1) q) := by
    unfold iblk
    rw [View.read_apply]
    show V m c main_v17 _ = V m c main_v17 _
    congr 1
    funext a; apply Fin.ext
    match a with
    | ⟨0, _⟩ => show win0_12.index t 0 * 1 + 1 * 0 = 0; rw [e0]
    | ⟨1, _⟩ => show win0_12.index t 1 * 1024 + 1 * q.val = q.val; rw [e1]; omega
  rw [eb, V_main_v17 m c]
  exact shapeCast_a_1a_apply _ _ 0 q

/-- The candidate gate's hidden-side half. -/
theorem wch_block (c : Dev nD) (t : Fin cfg0.N) (k q : Fin 1024) :
    (iblk m c 7 t : Vec Ideal S1024x1024 .bf16) (ix2 k q) = ((m ((c : Thread nD τ).loc main_arg7)) : S2048x1024.Idx → EReal) (ix2 (Lstm.lo k) q) := by
  obtain ⟨e0, e1⟩ := idx_w7 t
  have eb : (iblk m c 7 t : Vec Ideal S1024x1024 .bf16) (ix2 k q) = (V m c main_v9 : S1024x1024.Idx → EReal) (ix2 k q) := by
    unfold iblk
    rw [View.read_apply]
    show V m c main_v9 _ = V m c main_v9 _
    congr 1
    funext a; apply Fin.ext
    match a with
    | ⟨0, _⟩ => show win0_7.index t 0 * 1024 + 1 * k.val = k.val; rw [e0]; omega
    | ⟨1, _⟩ => show win0_7.index t 1 * 1024 + 1 * q.val = q.val; rw [e1]; omega
  rw [eb, V_main_v9 m c]
  exact lo_half _ k q

/-- The candidate gate's input-side half. -/
theorem wcx_block (c : Dev nD) (t : Fin cfg0.N) (k q : Fin 1024) :
    (iblk m c 8 t : Vec Ideal S1024x1024 .bf16) (ix2 k q) = ((m ((c : Thread nD τ).loc main_arg7)) : S2048x1024.Idx → EReal) (ix2 (Lstm.hi k) q) := by
  obtain ⟨e0, e1⟩ := idx_w8 t
  have eb : (iblk m c 8 t : Vec Ideal S1024x1024 .bf16) (ix2 k q) = (V m c main_v11 : S1024x1024.Idx → EReal) (ix2 k q) := by
    unfold iblk
    rw [View.read_apply]
    show V m c main_v11 _ = V m c main_v11 _
    congr 1
    funext a; apply Fin.ext
    match a with
    | ⟨0, _⟩ => show win0_8.index t 0 * 1024 + 1 * k.val = k.val; rw [e0]; omega
    | ⟨1, _⟩ => show win0_8.index t 1 * 1024 + 1 * q.val = q.val; rw [e1]; omega
  rw [eb, V_main_v11 m c]
  exact hi_half _ k q

/-- The candidate gate's bias row. -/
theorem bc_block (c : Dev nD) (t : Fin cfg0.N) (q : Fin 1024) :
    (iblk m c 13 t : Vec Ideal S1x1024 .f32) (ix2 (0 : Fin 1) q) = ((m ((c : Thread nD τ).loc main_arg8)) : S1024.Idx → EReal) (ix1 q) := by
  obtain ⟨e0, e1⟩ := idx_w13 t
  have eb : (iblk m c 13 t : Vec Ideal S1x1024 .f32) (ix2 (0 : Fin 1) q) = (V m c main_v18 : S1x1024.Idx → EReal) (ix2 (0 : Fin 1) q) := by
    unfold iblk
    rw [View.read_apply]
    show V m c main_v18 _ = V m c main_v18 _
    congr 1
    funext a; apply Fin.ext
    match a with
    | ⟨0, _⟩ => show win0_13.index t 0 * 1 + 1 * 0 = 0; rw [e0]
    | ⟨1, _⟩ => show win0_13.index t 1 * 1024 + 1 * q.val = q.val; rw [e1]; omega
  rw [eb, V_main_v18 m c]
  exact shapeCast_a_1a_apply _ _ 0 q

/-- The output gate's hidden-side half. -/
theorem woh_block (c : Dev nD) (t : Fin cfg0.N) (k q : Fin 1024) :
    (iblk m c 9 t : Vec Ideal S1024x1024 .bf16) (ix2 k q) = ((m ((c : Thread nD τ).loc main_arg9)) : S2048x1024.Idx → EReal) (ix2 (Lstm.lo k) q) := by
  obtain ⟨e0, e1⟩ := idx_w9 t
  have eb : (iblk m c 9 t : Vec Ideal S1024x1024 .bf16) (ix2 k q) = (V m c main_v13 : S1024x1024.Idx → EReal) (ix2 k q) := by
    unfold iblk
    rw [View.read_apply]
    show V m c main_v13 _ = V m c main_v13 _
    congr 1
    funext a; apply Fin.ext
    match a with
    | ⟨0, _⟩ => show win0_9.index t 0 * 1024 + 1 * k.val = k.val; rw [e0]; omega
    | ⟨1, _⟩ => show win0_9.index t 1 * 1024 + 1 * q.val = q.val; rw [e1]; omega
  rw [eb, V_main_v13 m c]
  exact lo_half _ k q

/-- The output gate's input-side half. -/
theorem wox_block (c : Dev nD) (t : Fin cfg0.N) (k q : Fin 1024) :
    (iblk m c 10 t : Vec Ideal S1024x1024 .bf16) (ix2 k q) = ((m ((c : Thread nD τ).loc main_arg9)) : S2048x1024.Idx → EReal) (ix2 (Lstm.hi k) q) := by
  obtain ⟨e0, e1⟩ := idx_w10 t
  have eb : (iblk m c 10 t : Vec Ideal S1024x1024 .bf16) (ix2 k q) = (V m c main_v15 : S1024x1024.Idx → EReal) (ix2 k q) := by
    unfold iblk
    rw [View.read_apply]
    show V m c main_v15 _ = V m c main_v15 _
    congr 1
    funext a; apply Fin.ext
    match a with
    | ⟨0, _⟩ => show win0_10.index t 0 * 1024 + 1 * k.val = k.val; rw [e0]; omega
    | ⟨1, _⟩ => show win0_10.index t 1 * 1024 + 1 * q.val = q.val; rw [e1]; omega
  rw [eb, V_main_v15 m c]
  exact hi_half _ k q

/-- The output gate's bias row. -/
theorem bo_block (c : Dev nD) (t : Fin cfg0.N) (q : Fin 1024) :
    (iblk m c 14 t : Vec Ideal S1x1024 .f32) (ix2 (0 : Fin 1) q) = ((m ((c : Thread nD τ).loc main_arg10)) : S1024.Idx → EReal) (ix1 q) := by
  obtain ⟨e0, e1⟩ := idx_w14 t
  have eb : (iblk m c 14 t : Vec Ideal S1x1024 .f32) (ix2 (0 : Fin 1) q) = (V m c main_v19 : S1x1024.Idx → EReal) (ix2 (0 : Fin 1) q) := by
    unfold iblk
    rw [View.read_apply]
    show V m c main_v19 _ = V m c main_v19 _
    congr 1
    funext a; apply Fin.ext
    match a with
    | ⟨0, _⟩ => show win0_14.index t 0 * 1 + 1 * 0 = 0; rw [e0]
    | ⟨1, _⟩ => show win0_14.index t 1 * 1024 + 1 * q.val = q.val; rw [e1]; omega
  rw [eb, V_main_v19 m c]
  exact shapeCast_a_1a_apply _ _ 0 q

/-! ## The two results of the arguments as launched -/

/-- The new hidden state of core `c`'s arguments. -/
def hiddenOf (c : Dev nD) : S4096x1024.Idx → EReal :=
  Lstm.newHidden (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) (m ((c : Thread nD τ).loc main_arg4)) (m ((c : Thread nD τ).loc main_arg6)) (m ((c : Thread nD τ).loc main_arg8)) (m ((c : Thread nD τ).loc main_arg10))

/-- The new cell state of core `c`'s arguments. -/
def cellOf (c : Dev nD) : S4096x1024.Idx → EReal :=
  Lstm.newCell (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8))

/-! ## What each point writes back, the cover, the arrays after the run -/

/-- What point `t` writes back through window 16 is block `t` of the new cell state of the arguments. -/
theorem flushed16_eq (c : Dev nD) (t : Fin cfg0.N) :
    (dats m 0 c).flushed 16 t = ((cfg0.win 16).blk t).view.read (Elt Ideal) (cellOf m c) := by
  rw [Value.flushed16]
  unfold out0_16
  rw [View.canon_unit_zero hz]
  simp only [View.ld_unit_zero (S := S256x1024) hz, View.ld_unit_zero (S := S1024x1024) hz, View.ld_unit_zero (S := S1x1024) hz]
  funext y
  obtain ⟨r, q, rfl⟩ : ∃ (r : Fin 256) (q : Fin 1024), y = ix2 r q := ⟨y 0, y 1, eq_ix2 y⟩
  obtain ⟨e0, e1⟩ := idx_w16 t
  have ey : ((cfg0.win 16).blk t).view.emb (ix2 r q) = ix2 (row t r) q := by
    funext a; apply Fin.ext
    match a with
    | ⟨0, _⟩ => show win0_16.index t 0 * 256 + 1 * r.val = 256 * t.val + r.val; rw [e0]; omega
    | ⟨1, _⟩ => show win0_16.index t 1 * 1024 + 1 * q.val = q.val; rw [e1]; omega
  show k0_pay1 (iblk m c 2 t) (k0_pay4 (iblk m c 1 t)) (k0_pay5 (iblk m c 0 t) (iblk m c 1 t) (iblk m c 3 t) (iblk m c 4 t) (iblk m c 11 t)) (k0_pay6 (iblk m c 0 t) (iblk m c 1 t) (iblk m c 5 t) (iblk m c 6 t) (iblk m c 12 t)) (k0_pay7 (iblk m c 0 t) (iblk m c 7 t)) (iblk m c 8 t) (iblk m c 13 t) (ix2 r q)
      = cellOf m c (((cfg0.win 16).blk t).view.emb (ix2 r q))
  rw [ey]
  unfold cellOf
  rw [Lstm.newCell_ix2]
  refine (Payload.cell_apply (iblk m c 1 t) (iblk m c 0 t) (iblk m c 2 t) (iblk m c 3 t) (iblk m c 4 t) (iblk m c 5 t) (iblk m c 6 t) (iblk m c 7 t) (iblk m c 8 t) (iblk m c 11 t) (iblk m c 12 t) (iblk m c 13 t) r q).trans ?_
  exact Lstm.cellBlockAt_eq (iblk m c 1 t) (iblk m c 0 t) (iblk m c 2 t) (iblk m c 3 t) (iblk m c 4 t) (iblk m c 5 t) (iblk m c 6 t) (iblk m c 7 t) (iblk m c 8 t) (iblk m c 11 t) (iblk m c 12 t) (iblk m c 13 t)
      (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg4)) (m ((c : Thread nD τ).loc main_arg6)) (m ((c : Thread nD τ).loc main_arg8)) (row t r) r q
      (hidden_rows m c t r) (input_rows m c t r) (cell_rows m c t r q)
      (fun k => wfh_block m c t k q) (fun k => wfx_block m c t k q) (fun k => wih_block m c t k q) (fun k => wix_block m c t k q)
      (fun k => wch_block m c t k q) (fun k => wcx_block m c t k q) (bf_block m c t q) (bi_block m c t q) (bc_block m c t q)

/-- An entry of the array is in point `t`'s block iff each coordinate is in the block's range. -/
theorem mem_blk16 (t : Fin cfg0.N) (i : S4096x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v20_1).slice (win0_16.rect t)).set ↔ _
  rw [View.set_slice_whole, Rect.mem_set_unit]
  exact Iff.rfl

/-- Every entry is in the block of the point its row falls to: the 16 blocks of 256 rows tile the 4096 rows. -/
theorem cover16 (i : S4096x1024.Idx) : ∃ t : Fin cfg0.N, (cfg0.win 16).flush t = true ∧ i ∈ ((cfg0.win 16).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨e0, e1⟩ := idx_w16 t
  refine ⟨t, flush0_16 t, ?_⟩
  rw [mem_blk16]
  intro a
  match a with
  | ⟨0, _⟩ => show win0_16.index t 0 * 256 ≤ (i 0).val ∧ (i 0).val < win0_16.index t 0 * 256 + 256; rw [e0, ht]; omega
  | ⟨1, _⟩ => show win0_16.index t 1 * 1024 ≤ (i 1).val ∧ (i 1).val < win0_16.index t 1 * 1024 + 1024; rw [e1]; omega

/-- After the run the array of window 16 is the new cell state of the arguments. -/
theorem final16 (c : Dev nD) : (dats m 0 c).arrAt 16 cfg0.N = cellOf m c :=
  (dats m 0 c).arrAt_eq_of_cover 16 (cellOf m c) (fun t _ => flushed16_eq m c t) cover16

/-- What point `t` writes back through window 15 is block `t` of the new hidden state of the arguments. -/
theorem flushed15_eq (c : Dev nD) (t : Fin cfg0.N) :
    (dats m 0 c).flushed 15 t = ((cfg0.win 15).blk t).view.read (Elt Ideal) (hiddenOf m c) := by
  rw [Value.flushed15]
  unfold out0_15
  rw [View.canon_unit_zero hz]
  simp only [View.ld_unit_zero (S := S256x1024) hz, View.ld_unit_zero (S := S1024x1024) hz, View.ld_unit_zero (S := S1x1024) hz]
  funext y
  obtain ⟨r, q, rfl⟩ : ∃ (r : Fin 256) (q : Fin 1024), y = ix2 r q := ⟨y 0, y 1, eq_ix2 y⟩
  obtain ⟨e0, e1⟩ := idx_w15 t
  have ey : ((cfg0.win 15).blk t).view.emb (ix2 r q) = ix2 (row t r) q := by
    funext a; apply Fin.ext
    match a with
    | ⟨0, _⟩ => show win0_15.index t 0 * 256 + 1 * r.val = 256 * t.val + r.val; rw [e0]; omega
    | ⟨1, _⟩ => show win0_15.index t 1 * 1024 + 1 * q.val = q.val; rw [e1]; omega
  show k0_pay2 (iblk m c 2 t) (k0_pay3 (iblk m c 0 t)) (k0_pay4 (iblk m c 1 t)) (k0_pay5 (iblk m c 0 t) (iblk m c 1 t) (iblk m c 3 t) (iblk m c 4 t) (iblk m c 11 t)) (k0_pay6 (iblk m c 0 t) (iblk m c 1 t) (iblk m c 5 t) (iblk m c 6 t) (iblk m c 12 t)) (k0_pay7 (iblk m c 0 t) (iblk m c 7 t)) (iblk m c 8 t) (iblk m c 13 t) (iblk m c 9 t) (iblk m c 10 t) (iblk m c 14 t) (ix2 r q)
      = hiddenOf m c (((cfg0.win 15).blk t).view.emb (ix2 r q))
  rw [ey]
  unfold hiddenOf
  rw [Lstm.newHidden_ix2]
  refine (Payload.hidden_apply (iblk m c 1 t) (iblk m c 0 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r q).trans ?_
  exact Lstm.hiddenBlockAt_eq (iblk m c 1 t) (iblk m c 0 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) (m ((c : Thread nD τ).loc main_arg4)) (m ((c : Thread nD τ).loc main_arg6)) (m ((c : Thread nD τ).loc main_arg8)) (m ((c : Thread nD τ).loc main_arg10)) (row t r) r q
      (hidden_rows m c t r) (input_rows m c t r) (cell_rows m c t r q)
      (fun k => wfh_block m c t k q) (fun k => wfx_block m c t k q) (fun k => wih_block m c t k q) (fun k => wix_block m c t k q)
      (fun k => wch_block m c t k q) (fun k => wcx_block m c t k q) (fun k => woh_block m c t k q) (fun k => wox_block m c t k q)
      (bf_block m c t q) (bi_block m c t q) (bc_block m c t q) (bo_block m c t q)

/-- An entry of the array is in point `t`'s block iff each coordinate is in the block's range. -/
theorem mem_blk15 (t : Fin cfg0.N) (i : S4096x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v20_0).slice (win0_15.rect t)).set ↔ _
  rw [View.set_slice_whole, Rect.mem_set_unit]
  exact Iff.rfl

/-- Every entry is in the block of the point its row falls to: the 16 blocks of 256 rows tile the 4096 rows. -/
theorem cover15 (i : S4096x1024.Idx) : ∃ t : Fin cfg0.N, (cfg0.win 15).flush t = true ∧ i ∈ ((cfg0.win 15).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨e0, e1⟩ := idx_w15 t
  refine ⟨t, flush0_15 t, ?_⟩
  rw [mem_blk15]
  intro a
  match a with
  | ⟨0, _⟩ => show win0_15.index t 0 * 256 ≤ (i 0).val ∧ (i 0).val < win0_15.index t 0 * 256 + 256; rw [e0, ht]; omega
  | ⟨1, _⟩ => show win0_15.index t 1 * 1024 ≤ (i 1).val ∧ (i 1).val < win0_15.index t 1 * 1024 + 1024; rw [e1]; omega

/-- After the run the array of window 15 is the new hidden state of the arguments. -/
theorem final15 (c : Dev nD) : (dats m 0 c).arrAt 15 cfg0.N = hiddenOf m c :=
  (dats m 0 c).arrAt_eq_of_cover 15 (hiddenOf m c) (fun t _ => flushed15_eq m c t) cover15

/-! ## The run, read -/

/-- Every weakly fair execution of the kernel's program ends with the two result arrays at the new hidden and the new
    cell state of the arguments, the arguments unchanged. -/
theorem run : θ_run defs (onTc (τ := τ) (main (F := Ideal))) ⟨m, fun _ => 0, ρ⟩ fun r => ∀ c : Dev nD,
      r.2.mem ((c : Thread nD τ).loc main_v20_0) = hiddenOf m c
      ∧ r.2.mem ((c : Thread nD τ).loc main_v20_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final15 m c), (h c).2.1.trans (final16 m c), (h c).2.2⟩)
    (Cert.KernelIdeal.Value.run_blocks m ρ)

end Cert.KernelIdeal.Blocks

end
-- ==== Proof.lean ====
/-
  A kernel for one step of an LSTM cell against its plain reference, equal on the extended reals.

  Both programs take the input, the hidden state and the cell state (4096 rows of 1024 numbers each) and, for each of
  the forget, input, candidate and output gates, a weight matrix of 2048 rows by 1024 units and a bias of 1024 numbers;
  both return the new hidden state and the new cell state.

  The reference lays each hidden row and input row side by side as one row of 2048 numbers and multiplies by the whole
  weight matrix. The kernel never joins them: before it is launched each weight matrix is cut into its first and last
  1024 rows, and on every block of 256 batch rows the kernel multiplies the hidden block by the first half and the input
  block by the second half and adds the two products. The two ways agree because a sum over 2048 terms is the sum of its
  first 1024 plus the sum of its last 1024 (`Lstm.sum_halves`), which holds in every commutative monoid, so nothing
  about finiteness is used. The kernel's narrower number format for the products' operands is the identity at the exact
  values, its logistic function is by definition the reference's 1 / (1 + exp (-z)), and tanh is the same function on
  both sides.

  The modules: LstmSpec (the step on index coordinates, and the law), LstmBlock (the step on one block of 256 rows with
  split weights), RefIsLstm (the reference's two results are the specification's), KernelPayload (what the kernel's body
  stores, entry by entry), KernelBlocks (what each grid point writes back is its block of the specification's arrays,
  the 16 blocks tile the batch, hence the arrays after the run). Here the five claims are put together: the three
  programs run and leave their arguments unchanged; the idealized kernel is the kernel's own text (no rewrite to
  justify); and the idealized kernel and the idealized reference end with the same two arrays.
-/
import proofs.«143583_j28698971472164_1_alg».proof.Defs
import proofs.«143583_j28698971472164_1_alg».proof.Proof.Gen.Kernel
import proofs.«143583_j28698971472164_1_alg».proof.Proof.Gen.Kernel.Skeleton
import proofs.«143583_j28698971472164_1_alg».proof.Proof.Gen.Kernel.Launch
import proofs.«143583_j28698971472164_1_alg».proof.Proof.Gen.Kernel.Points
import proofs.«143583_j28698971472164_1_alg».proof.Proof.Gen.Kernel.Frame
import proofs.«143583_j28698971472164_1_alg».proof.Proof.Gen.KernelIdeal
import proofs.«143583_j28698971472164_1_alg».proof.Proof.Gen.KernelIdeal.Skeleton
import proofs.«143583_j28698971472164_1_alg».proof.Proof.Gen.KernelIdeal.Launch
import proofs.«143583_j28698971472164_1_alg».proof.Proof.Gen.KernelIdeal.Points
import proofs.«143583_j28698971472164_1_alg».proof.Proof.Gen.KernelIdeal.Frame
import proofs.«143583_j28698971472164_1_alg».proof.Proof.Gen.ReferenceIdeal
import proofs.«143583_j28698971472164_1_alg».proof.Proof.Gen.Pre_finite_inputs
import proofs.«143583_j28698971472164_1_alg».proof.Proof.Gen.KernelIdeal.Value
import proofs.«143583_j28698971472164_1_alg».proof.Proof.Gen.ReferenceIdeal.Run
import proofs.«143583_j28698971472164_1_alg».proof.Proof.Gen.ReferenceIdeal.Read
import proofs.«143583_j28698971472164_1_alg».proof.Proof.RefIsLstm
import proofs.«143583_j28698971472164_1_alg».proof.Proof.KernelBlocks
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments, the idealized kernel ends with its two result arrays at the new hidden
    state and the new cell state of the arguments (`Blocks.run`), and the idealized reference's two results are the same
    two arrays (`IsLstm.newHidden_ref`, `IsLstm.newCell_ref`). -/
theorem algebraic : Cert.algebraic_KernelIdeal_ReferenceIdeal := by
  intro m ρ m' ρ' _ hagree
  refine ⟨fun c => Cert.KernelIdeal.Blocks.hiddenOf m c, fun c => Cert.KernelIdeal.Blocks.cellOf m c,
    Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.Read.val_main_v40_eq, Cert.ReferenceIdeal.IsLstm.newHidden_ref,
      a0, a1, a2, a3, a4, a5, a6, a7, a8, a9, a10]
    rfl
  · rw [Cert.ReferenceIdeal.Read.val_main_v28_eq, Cert.ReferenceIdeal.IsLstm.newCell_ref,
      a0, a1, a2, a3, a4, a5, a6, a7, a8]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
